-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S256x64 .f32) (main_arg7 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : FVec F S800000x64 .f32) (main_arg2 : IVec S800000 32) (main_arg3 : IVec S800000 32) (main_arg4 : FVec F S128x256 .f32) (main_arg5 : FVec F S256 .f32) (main_arg6 : FVec F S256x64 .f32) (main_arg7 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S128x256 .f32 := Host.absf main_arg4
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S64x256 : Shape := ⟨2, ![64, 256]⟩
abbrev S1x256 : Shape := ⟨2, ![1, 256]⟩
abbrev S1x64 : Shape := ⟨2, ![1, 64]⟩
abbrev S5000x64 : Shape := ⟨2, ![5000, 64]⟩
abbrev S5000x256 : Shape := ⟨2, ![5000, 256]⟩

abbrev nBuf : Space → Nat
  | .hbm => 22
  | .vmem => 11
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x64, .f32⟩
  | .hbm, ⟨17, _⟩ => ⟨S64x256, .f32⟩
  | .hbm, ⟨18, _⟩ => ⟨S64x256, .f32⟩
  | .hbm, ⟨19, _⟩ => ⟨S1x256, .f32⟩
  | .hbm, ⟨20, _⟩ => ⟨S1x64, .f32⟩
  | .hbm, ⟨21, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x256, .f32⟩
  | .local _ .vmem, ⟨5, _⟩ => ⟨S64x256, .f32⟩
  | .local _ .vmem, ⟨6, _⟩ => ⟨S1x256, .f32⟩
  | .local _ .vmem, ⟨7, _⟩ => ⟨S256x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  slices_S128x256_S64x256_0_0 : S128x256.Slices ![0, 0] S64x256
  slices_S128x256_S64x256_64_0 : S128x256.Slices ![64, 0] S64x256
  shapeCasts_S256_S1x256 : S256.ShapeCasts S1x256
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000x64_S800000x1_S800000x64_1_0_0_1_wf : ScatterDims.WF S50000x64 S800000x1 S800000x64 [1] [0] [0] 1
  dot_S5000x64_S64x256_S5000x256_1_0_0_1_n_n_wf : DotDims.WF S5000x64 S64x256 S5000x256 [1] [0] [0] [1] [] []
  dot_S5000x256_S256x64_S5000x64_1_0_0_1_n_n_wf : DotDims.WF S5000x256 S256x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S256x64.size a
  hwx0_5 : ∀ i : grid0.Coords, EltTy.bits .f32 = 32 ∨ (Rect.block (s := S256x64) S256x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def dot_S5000x256_S256x64_S5000x64_1_0_0_1_n_n : DotDims S5000x256 S256x64 S5000x64 where
  lhsContracting := [1]
  rhsContracting := [0]
  lhsNonContracting := [0]
  rhsNonContracting := [1]
  lhsBatch := []
  rhsBatch := []
  wf := dot_S5000x256_S256x64_S5000x64_1_0_0_1_n_n_wf

abbrev win0_0 : Pipeline.Window sig grid0 :=
  Pipeline.Window.ofSpec (Memref.whole main_v6) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S800000 : Shape := ⟨1, ![800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩
abbrev S800000x1 : Shape := ⟨2, ![800000, 1]⟩
abbrev S50000x128 : Shape := ⟨2, ![50000, 128]⟩
abbrev S50000x256 : Shape := ⟨2, ![50000, 256]⟩
abbrev S1x256 : Shape := ⟨2, ![1, 256]⟩
abbrev S1x64 : Shape := ⟨2, ![1, 64]⟩

abbrev nBuf : Space → Nat
  | .hbm => 29
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S800000, .i32⟩
  | .hbm, ⟨3, _⟩ => ⟨S800000, .i32⟩
  | .hbm, ⟨4, _⟩ => ⟨S128x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S_, .f32⟩
  | .hbm, ⟨9, _⟩ => ⟨S50000x64, .f32⟩
  | .hbm, ⟨10, _⟩ => ⟨S800000x1, .i32⟩
  | .hbm, ⟨11, _⟩ => ⟨S50000x64, .f32⟩
  | .hbm, ⟨12, _⟩ => ⟨S_, .f32⟩
  | .hbm, ⟨13, _⟩ => ⟨S50000x64, .f32⟩
  | .hbm, ⟨14, _⟩ => ⟨S800000x1, .i32⟩
  | .hbm, ⟨15, _⟩ => ⟨S50000x64, .f32⟩
  | .hbm, ⟨16, _⟩ => ⟨S50000x64, .f32⟩
  | .hbm, ⟨17, _⟩ => ⟨S50000x128, .f32⟩
  | .hbm, ⟨18, _⟩ => ⟨S50000x256, .f32⟩
  | .hbm, ⟨19, _⟩ => ⟨S1x256, .f32⟩
  | .hbm, ⟨20, _⟩ => ⟨S50000x256, .f32⟩
  | .hbm, ⟨21, _⟩ => ⟨S50000x256, .f32⟩
  | .hbm, ⟨22, _⟩ => ⟨S_, .f32⟩
  | .hbm, ⟨23, _⟩ => ⟨S50000x256, .f32⟩
  | .hbm, ⟨24, _⟩ => ⟨S50000x256, .f32⟩
  | .hbm, ⟨25, _⟩ => ⟨S50000x64, .f32⟩
  | .hbm, ⟨26, _⟩ => ⟨S1x64, .f32⟩
  | .hbm, ⟨27, _⟩ => ⟨S50000x64, .f32⟩
  | .hbm, ⟨28, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_cst : Ref sig .tc := ⟨.hbm, 22, rfl⟩
abbrev main_call0_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S_S50000x64 : S_.BroadcastsInDim S50000x64 (![] : Fin 0 → Fin S50000x64.rank)
  bcast_S800000_S800000x1_0 : S800000.BroadcastsInDim S800000x1 (![0] : Fin 1 → Fin S800000x1.rank)
  concatenates_S50000x64_S50000x64_S50000x128_d1 : Shape.Concatenates [S50000x64, S50000x64] S50000x128 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000x64_S800000x1_S800000x64_1_0_0_1_wf : ScatterDims.WF S50000x64 S800000x1 S800000x64 [1] [0] [0] 1
  dot_S50000x128_S128x256_S50000x256_1_0_0_1_n_n_wf : DotDims.WF S50000x128 S128x256 S50000x256 [1] [0] [0] [1] [] []
  dot_S50000x256_S256x64_S50000x64_1_0_0_1_n_n_wf : DotDims.WF S50000x256 S256x64 S50000x64 [1] [0] [0] [1] [] []

variable [Facts₀]

def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.NodeUpdate.lean ====
/-
  The node update of one message-passing layer, as one function of its arrays.

  Every node p carries a feature row x[p, ·] of 64 numbers and has received an aggregate row s[p, ·] of 64 numbers
  (the sum of the features of the edges that touch it). The update is a two-layer perceptron on the 128 numbers
  (s[p, ·], x[p, ·]) laid side by side:

      h[p, k] = max( Σ_{a < 128} cat[p, a] · W1[a, k] + b1[k], 0 )                    (k < 256)
      y[p, j] = Σ_{k < 256} h[p, k] · W2[k, j] + b2[j]                                (j < 64)

  where cat[p, a] = s[p, a] for a < 64 and cat[p, a] = x[p, a − 64] for a ≥ 64. Because the 128 columns of `cat`
  are the 64 of `s` followed by the 64 of `x`, the first contraction is the sum of two contractions of length 64,
  one against the upper half of W1's rows and one against the lower half:

      Σ_{a < 128} cat[p, a] · W1[a, k] = Σ_{a < 64} s[p, a] · W1[a, k] + Σ_{a < 64} x[p, a] · W1[64 + a, k].

  This is only a regrouping of a finite sum, so it holds in every additive commutative monoid — in particular on the
  extended reals, infinite entries included. The function below is written in the split form; `sum_halves` is the
  regrouping.
-/
import Idealize.ShloMosaic.Lib.ValueIdx

noncomputable section

namespace Cert.NodeUpdate

open Idealize.ShloMosaic Idealize.ShloMosaic.ValueIdx
open scoped BigOperators

/-- Row a of the upper half of a 128-row matrix. -/
def lo (a : Fin 64) : Fin 128 := ⟨a.val, by have := a.isLt; omega⟩
/-- Row a of the lower half of a 128-row matrix: row 64 + a. -/
def hi (a : Fin 64) : Fin 128 := ⟨64 + a.val, by have := a.isLt; omega⟩

/-- A sum of 128 terms is the sum of the first 64 plus the sum of the last 64, in any additive commutative monoid. -/
theorem sum_halves {M : Type*} [AddCommMonoid M] (f : Fin 128 → M) :
    ∑ a : Fin 128, f a = ∑ a : Fin 64, f (lo a) + ∑ a : Fin 64, f (hi a) :=
  Fin.sum_univ_add (a := 64) (b := 64) (fun i : Fin (64 + 64) => f i)

/-- One entry of the update, from the data it depends on: node p's aggregate row `s` and feature row `x`, the upper and
    lower halves `U`, `L` of the first weight matrix, the first bias `b`, column j of the second weight matrix `w`, and
    entry j of the second bias `d`; `z` is the floor of the rectifier (the number zero, as the programs spell it). -/
def entry (z : EReal) (s x : Fin 64 → EReal) (U L : Fin 64 → Fin 256 → EReal) (b : Fin 256 → EReal)
    (w : Fin 256 → EReal) (d : EReal) : EReal :=
  (∑ k : Fin 256, max (((∑ a : Fin 64, s a * U a k) + ∑ a : Fin 64, x a * L a k) + b k) z * w k) + d

/-- The row coordinate of an index of a 50000 × 64 array, as a number below 50000. -/
def row (i : (⟨2, ![50000, 64]⟩ : Shape).Idx) : Fin 50000 := ⟨(i 0).val, (i 0).isLt⟩
/-- The column coordinate of an index of a 50000 × 64 array, as a number below 64. -/
def col (i : (⟨2, ![50000, 64]⟩ : Shape).Idx) : Fin 64 := ⟨(i 1).val, (i 1).isLt⟩

/-- The updated node features as one function of the aggregate `S`, the node features `X`, and the weights and biases:
    entry (p, j) is `entry` of rows p of `S` and `X`, the two halves of `W1`, `b1`, column j of `W2` and `b2[j]`. -/
def updated (z : EReal) (S X : (⟨2, ![50000, 64]⟩ : Shape).Idx → EReal) (W1 : (⟨2, ![128, 256]⟩ : Shape).Idx → EReal)
    (b1 : (⟨1, ![256]⟩ : Shape).Idx → EReal) (W2 : (⟨2, ![256, 64]⟩ : Shape).Idx → EReal)
    (b2 : (⟨1, ![64]⟩ : Shape).Idx → EReal) : (⟨2, ![50000, 64]⟩ : Shape).Idx → EReal := fun i =>
  entry z (fun a => S (ix2 (row i) a)) (fun a => X (ix2 (row i) a)) (fun a k => W1 (ix2 (lo a) k))
    (fun a k => W1 (ix2 (hi a) k)) (fun k => b1 (ix1 k)) (fun k => W2 (ix2 k (col i))) (b2 (ix1 (col i)))

/-- `updated` at an index is `entry` of the data that index depends on. -/
theorem updated_apply (z : EReal) (S X : (⟨2, ![50000, 64]⟩ : Shape).Idx → EReal) (W1 : (⟨2, ![128, 256]⟩ : Shape).Idx → EReal)
    (b1 : (⟨1, ![256]⟩ : Shape).Idx → EReal) (W2 : (⟨2, ![256, 64]⟩ : Shape).Idx → EReal)
    (b2 : (⟨1, ![64]⟩ : Shape).Idx → EReal) (i : (⟨2, ![50000, 64]⟩ : Shape).Idx) :
    updated z S X W1 b1 W2 b2 i
      = entry z (fun a => S (ix2 (row i) a)) (fun a => X (ix2 (row i) a)) (fun a k => W1 (ix2 (lo a) k))
          (fun a k => W1 (ix2 (hi a) k)) (fun k => b1 (ix1 k)) (fun k => W2 (ix2 k (col i))) (b2 (ix1 (col i))) := rfl

/-- `entry` depends only on its data. -/
theorem entry_congr {z : EReal} {s s' x x' : Fin 64 → EReal} {U U' L L' : Fin 64 → Fin 256 → EReal}
    {b b' w w' : Fin 256 → EReal} {d d' : EReal} (hs : s = s') (hx : x = x') (hU : U = U') (hL : L = L') (hb : b = b')
    (hw : w = w') (hd : d = d') : entry z s x U L b w d = entry z s' x' U' L' b' w' d' := by
  subst hs hx hU hL hb hw hd; rfl

/-- The row coordinate of an index of a 5000 × 64 block, as a number below 5000. -/
def brow (y : (⟨2, ![5000, 64]⟩ : Shape).Idx) : Fin 5000 := ⟨(y 0).val, (y 0).isLt⟩
/-- The column coordinate of an index of a 5000 × 64 block, as a number below 64. -/
def bcol (y : (⟨2, ![5000, 64]⟩ : Shape).Idx) : Fin 64 := ⟨(y 1).val, (y 1).isLt⟩

end Cert.NodeUpdate

end
-- ==== Proof.BodyValue.lean ====
/-
  What one grid step computes, entry by entry.

  A grid step receives a block of 5000 aggregate rows `s`, the matching 5000 node rows `x`, the upper and lower halves
  `U`, `L` of the first weight matrix (64 × 256 each), the first bias as a 1 × 256 row, the second weight matrix
  (256 × 64) and the second bias as a 1 × 64 row. It forms s·U and x·L as two matrix products into zero, adds them and the
  bias row (repeated down the 5000 rows), takes the maximum with zero, multiplies by the second weight matrix into zero and
  adds the second bias row. Read at row r and column q of the block — a matrix product into zero being the plain sum over
  the contracted index, a change of number format being the identity on exact values — this is `NodeUpdate.entry` of row
  r of `s` and `x`, of `U`, `L`, the bias row, column q of the second weight matrix and entry q of the second bias.
-/
import proofs.«108241_j65249143161008_2_alg».proof.Proof.Gen.KernelIdeal.Skeleton
import proofs.«108241_j65249143161008_2_alg».proof.Proof.LibMatmul2d
import proofs.«108241_j65249143161008_2_alg».proof.Proof.NodeUpdate
import Idealize.ShloMosaic.Lib.Pipeline.Value
import Idealize.ShloMosaic.Lib.ValueLayout

noncomputable section

namespace Cert.KernelIdeal.BodyValue

open Cert.KernelIdeal Cert.KernelIdeal.Gen Idealize.ShloMosaic Idealize.ShloMosaic.ValueIdx
open scoped BigOperators

/-- Entry (r, q) of what one grid step stores, from the blocks it loaded: the two row blocks `x0`, `x1`, the two halves
    `x2`, `x3` of the first weight matrix, the first bias row `x4`, the second weight matrix `x5` and the second bias row
    `x6`. -/
theorem payload_apply (x0 x1 : Vec Ideal S5000x64 .f32) (x2 x3 : Vec Ideal S64x256 .f32) (x4 : Vec Ideal S1x256 .f32)
    (x5 : Vec Ideal S256x64 .f32) (x6 : Vec Ideal S1x64 .f32) (r : Fin 5000) (q : Fin 64) :
    k0_pay1 (F := Ideal) x0 x1 x2 x3 x4 x5 x6 (ix2 r q)
      = NodeUpdate.entry (Ideal.ofBits .f32 0x00000000#32) (fun a => x0 (ix2 r a)) (fun a => x1 (ix2 r a))
          (fun a k => x2 (ix2 a k)) (fun a k => x3 (ix2 a k)) (fun k => x4 (ix2 (0 : Fin 1) k))
          (fun k => x5 (ix2 k q)) (x6 (ix2 (0 : Fin 1) q)) := by
  have eA : dot_S5000x64_S64x256_S5000x256_1_0_0_1_n_n = DotDims.plain 5000 64 256 := rfl
  have eB : dot_S5000x256_S256x64_S5000x64_1_0_0_1_n_n = DotDims.plain 5000 256 64 := rfl
  unfold k0_pay1 NodeUpdate.entry
  simp only [eA, eB, shapeCast_self, matmul, addf_apply, maximumf_apply, truncf_apply, broadcast_apply,
    Cert.LibMatmul2d.matmul_plain_apply, broadcastTo_1b_ab_apply, Ideal.ofBits_def]

/-- The same at any index of the block, by its coordinates. -/
theorem payload_at (x0 x1 : Vec Ideal S5000x64 .f32) (x2 x3 : Vec Ideal S64x256 .f32) (x4 : Vec Ideal S1x256 .f32)
    (x5 : Vec Ideal S256x64 .f32) (x6 : Vec Ideal S1x64 .f32) (y : S5000x64.Idx) :
    k0_pay1 (F := Ideal) x0 x1 x2 x3 x4 x5 x6 y
      = NodeUpdate.entry (Ideal.ofBits .f32 0x00000000#32) (fun a => x0 (ix2 (NodeUpdate.brow y) a))
          (fun a => x1 (ix2 (NodeUpdate.brow y) a)) (fun a k => x2 (ix2 a k)) (fun a k => x3 (ix2 a k))
          (fun k => x4 (ix2 (0 : Fin 1) k)) (fun k => x5 (ix2 k (NodeUpdate.bcol y))) (x6 (ix2 (0 : Fin 1) (NodeUpdate.bcol y))) := by
  obtain ⟨r, q, rfl⟩ : ∃ (r : Fin 5000) (q : Fin 64), y = ix2 r q := ⟨y 0, y 1, eq_ix2 y⟩
  exact payload_apply x0 x1 x2 x3 x4 x5 x6 r q

end Cert.KernelIdeal.BodyValue

end
-- ==== Proof.HostPrefix.lean ====
/-
  What the grid finds in the arrays the program writes before it.

  Before the grid starts the program has written five arrays: the aggregate (each edge's feature row added into the row of
  its first endpoint, and again into the row of its second endpoint; the two results added), the upper 64 rows of the
  first weight matrix, its lower 64 rows, and the two biases laid out as single rows. The aggregate is carried below as
  one function of the edge features and the two endpoint arrays and is never opened; the other four are read entry by
  entry: row a of the upper half is row a of the matrix, row a of the lower half is its row 64 + a, and entry (0, k) of a
  bias laid out as a row is its entry k.
-/
import proofs.«108241_j65249143161008_2_alg».proof.Proof.Gen.KernelIdeal.Frame
import proofs.«108241_j65249143161008_2_alg».proof.Proof.NodeUpdate
import Idealize.ShloMosaic.Lib.StableHlo.Run
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.NodeUpdate

variable (m : (ℓ : Loc nD τ sig) → Buf (Elt Ideal) ℓ)

/-- The aggregate of the edge features `e` over the endpoint arrays `s` and `r`: the rows of `e` added into an all-zero
    50000 × 64 array at the rows `s` names, plus the same at the rows `r` names. -/
def aggregate (e : (⟨S800000x64, .f32⟩ : BufTy).Contents (Elt Ideal)) (s r : (⟨S800000, .i32⟩ : BufTy).Contents (Elt Ideal)) :
    (⟨S50000x64, .f32⟩ : BufTy).Contents (Elt Ideal) :=
  addf
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 s) e)
    (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0 r) e)

/-- The grid finds the aggregate of the launch contents of the edge features and the two endpoint arrays. -/
theorem found_aggregate (c : Dev nD) :
    (V m c main_v6 : S50000x64.Idx → EReal)
      = aggregate (m ((c : Thread nD τ).loc main_arg1)) (m ((c : Thread nD τ).loc main_arg2)) (m ((c : Thread nD τ).loc main_arg3)) := by
  dsimp only [Gen.V, Gen.hostOps0]
  after_results
  rfl

/-- Row a of the upper half is row a of the first weight matrix. -/
theorem found_upper (c : Dev nD) (a : Fin 64) (k : Fin 256) :
    (V m c main_v7 : S64x256.Idx → EReal) (ix2 a k) = m ((c : Thread nD τ).loc main_arg4) (ix2 (lo a) k) := by
  have e : (V m c main_v7 : S64x256.Idx → EReal)
      = extractStridedSlice S64x256 ![0, 0] (m ((c : Thread nD τ).loc main_arg4)) slices_S128x256_S64x256_0_0 := by
    dsimp only [Gen.V, Gen.hostOps0]
    after_results
  exact (congrFun e (ix2 a k)).trans (slice2_axis0_apply 0 _ _ a k (lo a) (Nat.zero_add _).symm)

/-- Row a of the lower half is row 64 + a of the first weight matrix. -/
theorem found_lower (c : Dev nD) (a : Fin 64) (k : Fin 256) :
    (V m c main_v8 : S64x256.Idx → EReal) (ix2 a k) = m ((c : Thread nD τ).loc main_arg4) (ix2 (hi a) k) := by
  have e : (V m c main_v8 : S64x256.Idx → EReal)
      = extractStridedSlice S64x256 ![64, 0] (m ((c : Thread nD τ).loc main_arg4)) slices_S128x256_S64x256_64_0 := by
    dsimp only [Gen.V, Gen.hostOps0]
    after_results
  exact (congrFun e (ix2 a k)).trans (slice2_axis0_apply 64 _ _ a k (hi a) rfl)

/-- Entry (0, k) of the first bias laid out as a row is its entry k. -/
theorem found_bias1 (c : Dev nD) (k : Fin 256) :
    (V m c main_v9 : S1x256.Idx → EReal) (ix2 (0 : Fin 1) k) = m ((c : Thread nD τ).loc main_arg5) (ix1 k) := by
  have e : (V m c main_v9 : S1x256.Idx → EReal)
      = shapeCast S1x256 (m ((c : Thread nD τ).loc main_arg5)) shapeCasts_S256_S1x256 := by
    dsimp only [Gen.V, Gen.hostOps0]
    after_results
    rfl
  exact (congrFun e (ix2 (0 : Fin 1) k)).trans (shapeCast_a_1a_apply _ _ (0 : Fin 1) k)

/-- Entry (0, q) of the second bias laid out as a row is its entry q. -/
theorem found_bias2 (c : Dev nD) (q : Fin 64) :
    (V m c main_v10 : S1x64.Idx → EReal) (ix2 (0 : Fin 1) q) = m ((c : Thread nD τ).loc main_arg7) (ix1 q) := by
  have e : (V m c main_v10 : S1x64.Idx → EReal)
      = shapeCast S1x64 (m ((c : Thread nD τ).loc main_arg7)) shapeCasts_S64_S1x64 := by
    dsimp only [Gen.V, Gen.hostOps0]
    after_results
    rfl
  exact (congrFun e (ix2 (0 : Fin 1) q)).trans (shapeCast_a_1a_apply _ _ (0 : Fin 1) q)

end Cert.KernelIdeal.HostPrefix

end
-- ==== Proof.KernelValue.lean ====
/-
  The kernel's result array is the node update.

  The grid has ten points; point t works on rows 5000·t … 5000·t + 4999. At point t the aggregate's and the node
  features' blocks are those rows of their arrays, the weight and bias blocks are the whole arrays, and the step writes
  rows 5000·t … 5000·t + 4999 of the result. By `BodyValue.payload_at` entry (r, q) of what the step writes is
  `NodeUpdate.entry` of row r of the two row blocks and of the weights and biases; row r of a row block at point t is row
  5000·t + r of its array, which is the row of the result being written. So every step writes its block of ONE function
  of the launch contents, `result`; the ten blocks tile the 50000 rows (row p lies in block p / 5000), so the array ends
  holding `result`.
-/
import proofs.«108241_j65249143161008_2_alg».proof.Proof.Gen.KernelIdeal.Value
import proofs.«108241_j65249143161008_2_alg».proof.Proof.BodyValue
import proofs.«108241_j65249143161008_2_alg».proof.Proof.HostPrefix

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.Pipeline (Dat)
open Idealize.ShloMosaic.ValueIdx Cert.NodeUpdate Cert.KernelIdeal.HostPrefix

variable (m : (ℓ : Loc nD τ sig) → Buf (Elt Ideal) ℓ) (ρ : Dev nD → PrngReg)

theorem zero_offsets : (![0, 0] : Fin 2 → Nat) = fun _ => 0 := funext fun a => by fin_cases a <;> rfl

/-- The node update of the launch contents: the aggregate of the edge features over the two endpoint arrays, the node
    features, the weights and the biases. -/
def result (c : Dev nD) : S50000x64.Idx → EReal :=
  updated (Ideal.ofBits .f32 0x00000000#32) (aggregate (m ((c : Thread nD τ).loc main_arg1)) (m ((c : Thread nD τ).loc main_arg2)) (m ((c : Thread nD τ).loc main_arg3)))
    (m ((c : Thread nD τ).loc main_arg0)) (m ((c : Thread nD τ).loc main_arg4)) (m ((c : Thread nD τ).loc main_arg5)) (m ((c : Thread nD τ).loc main_arg6)) (m ((c : Thread nD τ).loc main_arg7))

/-- Which block each operand is on at point t (decided over the ten points): the two row operands are on the result's row
    block, block t; every other operand is on its only block. -/
theorem block_indices : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## The blocks at a point, read where the result's block says

Each read is stated for ANY contents `A` of the operand's array: which element of the array an element of the block is
depends only on the block's position, not on what the array holds. -/

/-- A window's block at a point is its array, as the grid finds it, read through the block. -/
theorem iblk_eq (c : Dev nD) (w : Fin cfg0.W) (t : Fin cfg0.N) :
    iblk m c w t = ((cfg0.win w).blk t).view.read (Elt Ideal) (V m c (Pipeline.arrRef spec0 w)) := rfl

/-- Row r of the first row operand's block at point t is the array's row under row r of the result's block. -/
theorem rows0_read (A : S50000x64.Idx → EReal) (t : Fin cfg0.N) (j : S5000x64.Idx) (a : Fin 64) :
    ((cfg0.win 0).blk t).view.read (Elt Ideal) A (ix2 (brow j) a) = A (ix2 (row (((cfg0.win 7).blk t).view.emb j)) a) := by
  obtain ⟨h00, h01, -⟩ := block_indices t
  show A (((cfg0.win 0).blk t).view.emb (ix2 (brow j) a)) = _
  exact congrArg A (funext fun d => Fin.ext (by
    match d with
    | ⟨0, _⟩ =>
      show win0_0.index t (0 : Fin 2) * 5000 + 1 * (j 0).val = win0_7.index t (0 : Fin 2) * 5000 + 1 * (j 0).val
      omega
    | ⟨1, _⟩ =>
      show win0_0.index t (1 : Fin 2) * 64 + 1 * a.val = a.val
      omega))

/-- Row r of the aggregate's block at point t is the aggregate's row under row r of the result's block. -/
theorem read_aggregate (c : Dev nD) (t : Fin cfg0.N) (j : S5000x64.Idx) (a : Fin 64) :
    iblk m c 0 t (ix2 (brow j) a)
      = aggregate (m ((c : Thread nD τ).loc main_arg1)) (m ((c : Thread nD τ).loc main_arg2)) (m ((c : Thread nD τ).loc main_arg3)) (ix2 (row (((cfg0.win 7).blk t).view.emb j)) a) :=
  (congrFun (iblk_eq m c 0 t) _).trans
    ((rows0_read (V m c (Pipeline.arrRef spec0 0)) t j a).trans (congrFun (found_aggregate m c) _))

/-- Row r of the second row operand's block at point t is the array's row under row r of the result's block. -/
theorem rows1_read (A : S50000x64.Idx → EReal) (t : Fin cfg0.N) (j : S5000x64.Idx) (a : Fin 64) :
    ((cfg0.win 1).blk t).view.read (Elt Ideal) A (ix2 (brow j) a) = A (ix2 (row (((cfg0.win 7).blk t).view.emb j)) a) := by
  obtain ⟨-, -, h10, h11, -⟩ := block_indices t
  show A (((cfg0.win 1).blk t).view.emb (ix2 (brow j) a)) = _
  exact congrArg A (funext fun d => Fin.ext (by
    match d with
    | ⟨0, _⟩ =>
      show win0_1.index t (0 : Fin 2) * 5000 + 1 * (j 0).val = win0_7.index t (0 : Fin 2) * 5000 + 1 * (j 0).val
      omega
    | ⟨1, _⟩ =>
      show win0_1.index t (1 : Fin 2) * 64 + 1 * a.val = a.val
      omega))

/-- Row r of the node features' block at point t is the features' row under row r of the result's block. -/
theorem read_nodes (c : Dev nD) (t : Fin cfg0.N) (j : S5000x64.Idx) (a : Fin 64) :
    iblk m c 1 t (ix2 (brow j) a) = (m ((c : Thread nD τ).loc main_arg0)) (ix2 (row (((cfg0.win 7).blk t).view.emb j)) a) :=
  (congrFun (iblk_eq m c 1 t) _).trans
    ((rows1_read (V m c (Pipeline.arrRef spec0 1)) t j a).trans (congrFun (V_main_arg0 m c) _))

/-- The third operand's only block is its whole array. -/
theorem whole2_read (A : S64x256.Idx → EReal) (t : Fin cfg0.N) (a : Fin 64) (k : Fin 256) :
    ((cfg0.win 2).blk t).view.read (Elt Ideal) A (ix2 a k) = A (ix2 a k) := by
  obtain ⟨-, -, -, -, h4, h5, -⟩ := block_indices t
  show A (((cfg0.win 2).blk t).view.emb (ix2 a k)) = _
  exact congrArg A (funext fun d => Fin.ext (by
    match d with
    | ⟨0, _⟩ => show win0_2.index t (0 : Fin 2) * 64 + 1 * a.val = a.val; omega
    | ⟨1, _⟩ => show win0_2.index t (1 : Fin 2) * 256 + 1 * k.val = k.val; omega))

/-- The upper half of the first weight matrix is staged whole. -/
theorem read_upper (c : Dev nD) (t : Fin cfg0.N) (a : Fin 64) (k : Fin 256) :
    iblk m c 2 t (ix2 a k) = (m ((c : Thread nD τ).loc main_arg4)) (ix2 (lo a) k) :=
  (congrFun (iblk_eq m c 2 t) _).trans ((whole2_read (V m c (Pipeline.arrRef spec0 2)) t a k).trans (found_upper m c a k))

/-- The fourth operand's only block is its whole array. -/
theorem whole3_read (A : S64x256.Idx → EReal) (t : Fin cfg0.N) (a : Fin 64) (k : Fin 256) :
    ((cfg0.win 3).blk t).view.read (Elt Ideal) A (ix2 a k) = A (ix2 a k) := by
  obtain ⟨-, -, -, -, -, -, h6, h7, -⟩ := block_indices t
  show A (((cfg0.win 3).blk t).view.emb (ix2 a k)) = _
  exact congrArg A (funext fun d => Fin.ext (by
    match d with
    | ⟨0, _⟩ => show win0_3.index t (0 : Fin 2) * 64 + 1 * a.val = a.val; omega
    | ⟨1, _⟩ => show win0_3.index t (1 : Fin 2) * 256 + 1 * k.val = k.val; omega))

/-- The lower half of the first weight matrix is staged whole. -/
theorem read_lower (c : Dev nD) (t : Fin cfg0.N) (a : Fin 64) (k : Fin 256) :
    iblk m c 3 t (ix2 a k) = (m ((c : Thread nD τ).loc main_arg4)) (ix2 (hi a) k) :=
  (congrFun (iblk_eq m c 3 t) _).trans ((whole3_read (V m c (Pipeline.arrRef spec0 3)) t a k).trans (found_lower m c a k))

/-- The fifth operand's only block is its whole array. -/
theorem whole4_read (A : S1x256.Idx → EReal) (t : Fin cfg0.N) (u : Fin 1) (k : Fin 256) :
    ((cfg0.win 4).blk t).view.read (Elt Ideal) A (ix2 u k) = A (ix2 u k) := by
  obtain ⟨-, -, -, -, -, -, -, -, h8, h9, -⟩ := block_indices t
  show A (((cfg0.win 4).blk t).view.emb (ix2 u k)) = _
  exact congrArg A (funext fun d => Fin.ext (by
    match d with
    | ⟨0, _⟩ => show win0_4.index t (0 : Fin 2) * 1 + 1 * u.val = u.val; omega
    | ⟨1, _⟩ => show win0_4.index t (1 : Fin 2) * 256 + 1 * k.val = k.val; omega))

/-- The first bias row is staged whole. -/
theorem read_bias1 (c : Dev nD) (t : Fin cfg0.N) (k : Fin 256) :
    iblk m c 4 t (ix2 (0 : Fin 1) k) = (m ((c : Thread nD τ).loc main_arg5)) (ix1 k) :=
  (congrFun (iblk_eq m c 4 t) _).trans ((whole4_read (V m c (Pipeline.arrRef spec0 4)) t 0 k).trans (found_bias1 m c k))

/-- The sixth operand's only block is its whole array. -/
theorem whole5_read (A : S256x64.Idx → EReal) (t : Fin cfg0.N) (k : Fin 256) (q : Fin 64) :
    ((cfg0.win 5).blk t).view.read (Elt Ideal) A (ix2 k q) = A (ix2 k q) := by
  obtain ⟨-, -, -, -, -, -, -, -, -, -, h10, h11, -⟩ := block_indices t
  show A (((cfg0.win 5).blk t).view.emb (ix2 k q)) = _
  exact congrArg A (funext fun d => Fin.ext (by
    match d with
    | ⟨0, _⟩ => show win0_5.index t (0 : Fin 2) * 256 + 1 * k.val = k.val; omega
    | ⟨1, _⟩ => show win0_5.index t (1 : Fin 2) * 64 + 1 * q.val = q.val; omega))

/-- The second weight matrix is staged whole. -/
theorem read_weights2 (c : Dev nD) (t : Fin cfg0.N) (k : Fin 256) (q : Fin 64) :
    iblk m c 5 t (ix2 k q) = (m ((c : Thread nD τ).loc main_arg6)) (ix2 k q) :=
  (congrFun (iblk_eq m c 5 t) _).trans ((whole5_read (V m c (Pipeline.arrRef spec0 5)) t k q).trans (congrFun (V_main_arg6 m c) _))

/-- The seventh operand's only block is its whole array. -/
theorem whole6_read (A : S1x64.Idx → EReal) (t : Fin cfg0.N) (u : Fin 1) (q : Fin 64) :
    ((cfg0.win 6).blk t).view.read (Elt Ideal) A (ix2 u q) = A (ix2 u q) := by
  obtain ⟨-, -, -, -, -, -, -, -, -, -, -, -, h12, h13, -⟩ := block_indices t
  show A (((cfg0.win 6).blk t).view.emb (ix2 u q)) = _
  exact congrArg A (funext fun d => Fin.ext (by
    match d with
    | ⟨0, _⟩ => show win0_6.index t (0 : Fin 2) * 1 + 1 * u.val = u.val; omega
    | ⟨1, _⟩ => show win0_6.index t (1 : Fin 2) * 64 + 1 * q.val = q.val; omega))

/-- The second bias row is staged whole. -/
theorem read_bias2 (c : Dev nD) (t : Fin cfg0.N) (q : Fin 64) :
    iblk m c 6 t (ix2 (0 : Fin 1) q) = (m ((c : Thread nD τ).loc main_arg7)) (ix1 q) :=
  (congrFun (iblk_eq m c 6 t) _).trans ((whole6_read (V m c (Pipeline.arrRef spec0 6)) t 0 q).trans (found_bias2 m c q))

/-! ## From the blocks to the array -/

/-- Entry j of what point t computes is `result` at the element of the array under entry j of the result's block. -/
theorem computed_apply (c : Dev nD) (t : Fin cfg0.N) (j : S5000x64.Idx) :
    k0_pay1 (iblk m c 0 t) (iblk m c 1 t) (iblk m c 2 t) (iblk m c 3 t) (iblk m c 4 t) (iblk m c 5 t) (iblk m c 6 t) j
      = result m c (((cfg0.win 7).blk t).view.emb j) := by
  refine (BodyValue.payload_at (iblk m c 0 t) (iblk m c 1 t) (iblk m c 2 t) (iblk m c 3 t) (iblk m c 4 t) (iblk m c 5 t)
    (iblk m c 6 t) j).trans ?_
  refine Eq.trans ?_ (updated_apply _ _ _ _ _ _ _ (((cfg0.win 7).blk t).view.emb j)).symm
  obtain ⟨-, -, -, -, -, -, -, -, -, -, -, -, -, -, h70, h71⟩ := block_indices t
  have hc : bcol j = col (((cfg0.win 7).blk t).view.emb j) := Fin.ext (by
    show (j 1).val = win0_7.index t (1 : Fin 2) * 64 + 1 * (j 1).val
    omega)
  refine entry_congr (funext fun a => read_aggregate m c t j a) (funext fun a => read_nodes m c t j a)
    (funext fun a => funext fun k => read_upper m c t a k) (funext fun a => funext fun k => read_lower m c t a k)
    (funext fun k => read_bias1 m c t k) (funext fun k => ?_) ?_
  · rw [← hc]; exact read_weights2 m c t k (bcol j)
  · rw [← hc]; exact read_bias2 m c t (bcol j)

/-- What point t writes back is block t of `result`. -/
theorem flushed_eq (c : Dev nD) (t : Fin cfg0.N) :
    (dats m 0 c).flushed 7 t = ((cfg0.win 7).blk t).view.read (Elt Ideal) (result m c) := by
  rw [Value.flushed7 m c t]
  unfold out0_7
  rw [View.canon_unit_zero zero_offsets]
  simp only [View.ld_unit_zero (S := S5000x64) zero_offsets, View.ld_unit_zero (S := S64x256) zero_offsets,
    View.ld_unit_zero (S := S1x256) zero_offsets, View.ld_unit_zero (S := S256x64) zero_offsets,
    View.ld_unit_zero (S := S1x64) zero_offsets]
  funext j
  rw [View.read_apply, cast_eq]
  refine (computed_apply m c t ((win0 7).xinj (grid0.coords t) j)).trans ?_
  have hj : ((win0 7).xinj (grid0.coords t) j : ((win0 7).xblock (grid0.coords t)).Idx) = j :=
    funext fun a => Fin.ext rfl
  rw [hj]

/-- An index of the array is in point t's block iff each coordinate is in the block's range on its axis. -/
theorem mem_block (t : Fin cfg0.N) (i : S50000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v11).slice (win0_7.rect t)).set ↔ _
  rw [View.set_slice_whole, Rect.mem_set_unit]
  exact Iff.rfl

/-- Every index lies in some point's block: row p is in block p / 5000. -/
theorem cover (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  obtain ⟨-, -, -, -, -, -, -, -, -, -, -, -, -, -, h70, h71⟩ := block_indices ⟨(i 0).val / 5000, ht⟩
  refine ⟨⟨(i 0).val / 5000, ht⟩, flush0_7 _, ?_⟩
  rw [mem_block]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    rw [h70]
    show (i 0).val / 5000 * 5000 ≤ (i 0).val ∧ (i 0).val < (i 0).val / 5000 * 5000 + 5000
    omega
  | ⟨1, _⟩ =>
    show win0_7.index ⟨(i 0).val / 5000, ht⟩ (1 : Fin 2) * 64 ≤ (i 1).val
      ∧ (i 1).val < win0_7.index ⟨(i 0).val / 5000, ht⟩ (1 : Fin 2) * 64 + 64
    omega

/-- The result array after the run is `result`. -/
theorem final (c : Dev nD) : (dats m 0 c).arrAt 7 cfg0.N = result m c :=
  (dats m 0 c).arrAt_eq_of_cover 7 (result m c) (fun t _ => flushed_eq m c t) cover

/-- Every weakly fair execution of the program terminates with the result array at `result` and the arguments unchanged. -/
theorem run : θ_run defs (onTc (τ := τ) (main (F := Ideal))) ⟨m, fun _ => 0, ρ⟩ fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KernelValue

end
-- ==== Proof.RefValue.lean ====
/-
  The reference computes the node update.

  The reference lays each node's aggregate row and feature row side by side into a row of 128 numbers, contracts it with
  the whole first weight matrix, adds the first bias, takes the maximum with zero, contracts with the second weight
  matrix and adds the second bias. Column a of the joined row is the aggregate's column a when a < 64 and the features'
  column a − 64 otherwise, so the contraction over 128 columns is the contraction of the aggregate row with the upper 64
  rows of the weight matrix plus that of the feature row with the lower 64 rows (`NodeUpdate.sum_halves`: a regrouping of
  a finite sum, valid on the extended reals with no finiteness assumed). Entry by entry the result is
  `NodeUpdate.updated` of the aggregate and the other arguments.
-/
import proofs.«108241_j65249143161008_2_alg».proof.Proof.Gen.ReferenceIdeal.Read
import proofs.«108241_j65249143161008_2_alg».proof.Proof.NodeUpdate

noncomputable section

namespace Cert.ReferenceIdeal.RefValue

open Cert.ReferenceIdeal Cert.ReferenceIdeal.Gen Cert.ReferenceIdeal.Read Idealize.ShloMosaic Idealize.ShloMosaic.ValueIdx Cert.NodeUpdate
open scoped BigOperators

/-- A column of the upper half of the joined array is the first piece's column. -/
theorem cat_lo (S X : (⟨S50000x64, .f32⟩ : BufTy).Contents (Elt Ideal)) (p : Fin 50000) (a : Fin 64) :
    concatenate S50000x128 1 [⟨S50000x64, S⟩, ⟨S50000x64, X⟩] concatenates_S50000x64_S50000x64_S50000x128_d1
      (ix2 p (lo a)) = S (ix2 p a) :=
  concatenate_pair_apply_left (1 : Fin 2) S X _ (ix2 p (lo a)) rfl (ix2 p a) (fun b => by
    match b with
    | ⟨0, _⟩ => rfl
    | ⟨1, _⟩ => rfl)

/-- A column of the lower half of the joined array is the second piece's column, 64 to the left. -/
theorem cat_hi (S X : (⟨S50000x64, .f32⟩ : BufTy).Contents (Elt Ideal)) (p : Fin 50000) (a : Fin 64) :
    concatenate S50000x128 1 [⟨S50000x64, S⟩, ⟨S50000x64, X⟩] concatenates_S50000x64_S50000x64_S50000x128_d1
      (ix2 p (hi a)) = X (ix2 p a) :=
  concatenate_pair_apply_right (1 : Fin 2) S X _ (ix2 p (hi a)) rfl rfl (ix2 p a) (fun b hb => by
    match b with
    | ⟨0, _⟩ => rfl
    | ⟨1, _⟩ => exact absurd rfl hb) (by show a.val + 64 = 64 + a.val; omega)

/-! The reference's stages, read at explicit coordinates: x0 the node features, x1 the edge features, x2 and x3 the
    two index arrays, x4 … x7 the weights and biases. The aggregate is the stage `val_main_v6 x1 x2 x3`; nothing below
    looks inside it. -/

section Stages

variable (x0 : (⟨S50000x64, .f32⟩ : BufTy).Contents (Elt Ideal)) (x1 : (⟨S800000x64, .f32⟩ : BufTy).Contents (Elt Ideal))
  (x2 x3 : (⟨S800000, .i32⟩ : BufTy).Contents (Elt Ideal)) (x4 : (⟨S128x256, .f32⟩ : BufTy).Contents (Elt Ideal))
  (x5 : (⟨S256, .f32⟩ : BufTy).Contents (Elt Ideal)) (x6 : (⟨S256x64, .f32⟩ : BufTy).Contents (Elt Ideal))
  (x7 : (⟨S64, .f32⟩ : BufTy).Contents (Elt Ideal))

/-- The first contraction at (p, k): the joined row against column k of the first weight matrix, split at column 64. -/
theorem contract1_apply (p : Fin 50000) (k : Fin 256) :
    val_main_v8 (F := Ideal) x0 x1 x2 x3 x4 (ix2 p k)
      = (∑ a : Fin 64, val_main_v6 (F := Ideal) x1 x2 x3 (ix2 p a) * x4 (ix2 (lo a) k))
        + ∑ a : Fin 64, x0 (ix2 p a) * x4 (ix2 (hi a) k) := by
  rw [val_main_v8_apply x0 x1 x2 x3 x4 (ix2 p k), sum_halves]
  have hl : ∀ a : Fin 128, lidx_main_v8 (ix2 p k) a = ix2 p a := fun a =>
    funext fun d => Fin.ext (by match d with | ⟨0, _⟩ => rfl | ⟨1, _⟩ => rfl)
  have hr : ∀ a : Fin 128, ridx_main_v8 (ix2 p k) a = ix2 a k := fun a =>
    funext fun d => Fin.ext (by match d with | ⟨0, _⟩ => rfl | ⟨1, _⟩ => rfl)
  refine congrArg₂ (· + ·) (Finset.sum_congr rfl fun a _ => ?_) (Finset.sum_congr rfl fun a _ => ?_)
  · rw [hl (lo a), hr (lo a)]
    exact congrArg (· * x4 (ix2 (lo a) k)) (cat_lo (val_main_v6 (F := Ideal) x1 x2 x3) x0 p a)
  · rw [hl (hi a), hr (hi a)]
    exact congrArg (· * x4 (ix2 (hi a) k)) (cat_hi (val_main_v6 (F := Ideal) x1 x2 x3) x0 p a)

/-- The first bias, repeated down the rows, at (p, k). -/
theorem bias1_apply (p : Fin 50000) (k : Fin 256) : val_main_v10 (F := Ideal) x5 (ix2 p k) = x5 (ix1 k) := by
  rw [val_main_v10_apply x5 (ix2 p k), val_main_v9_apply x5 (idx_main_v10 (ix2 p k))]
  exact congrArg x5 (funext fun d => Fin.ext (by match d with | ⟨0, _⟩ => rfl))

/-- The rectifier's floor at any entry: the zero word. -/
theorem floor_apply (p : Fin 50000) (k : Fin 256) :
    val_main_call0_v0 (F := Ideal) (ix2 p k) = Ideal.ofBits .f32 0x00000000#32 := by
  rw [val_main_call0_v0_apply (ix2 p k)]
  rfl

/-- The hidden activation at (p, k). -/
theorem hidden_apply (p : Fin 50000) (k : Fin 256) :
    val_main_v12 (F := Ideal) x0 x1 x2 x3 x4 x5 (ix2 p k)
      = max ((((∑ a : Fin 64, val_main_v6 (F := Ideal) x1 x2 x3 (ix2 p a) * x4 (ix2 (lo a) k))
          + ∑ a : Fin 64, x0 (ix2 p a) * x4 (ix2 (hi a) k)) + x5 (ix1 k))) (Ideal.ofBits .f32 0x00000000#32) := by
  rw [val_main_v12_apply x0 x1 x2 x3 x4 x5 (ix2 p k), val_main_v11_apply x0 x1 x2 x3 x4 x5 (ix2 p k),
    contract1_apply x0 x1 x2 x3 x4 p k, bias1_apply x5 p k, floor_apply p k]
  rfl

/-- The reference's result at (p, q). -/
theorem result_apply (p : Fin 50000) (q : Fin 64) :
    val_main_v16 (F := Ideal) x0 x1 x2 x3 x4 x5 x6 x7 (ix2 p q)
      = entry (Ideal.ofBits .f32 0x00000000#32) (fun a => val_main_v6 (F := Ideal) x1 x2 x3 (ix2 p a))
          (fun a => x0 (ix2 p a)) (fun a k => x4 (ix2 (lo a) k)) (fun a k => x4 (ix2 (hi a) k)) (fun k => x5 (ix1 k))
          (fun k => x6 (ix2 k q)) (x7 (ix1 q)) := by
  rw [val_main_v16_apply x0 x1 x2 x3 x4 x5 x6 x7 (ix2 p q), val_main_v13_apply x0 x1 x2 x3 x4 x5 x6 (ix2 p q),
    val_main_v15_apply x7 (ix2 p q), val_main_v14_apply x7 (idx_main_v15 (ix2 p q))]
  have hl : ∀ k : Fin 256, lidx_main_v13 (ix2 p q) k = ix2 p k := fun k =>
    funext fun d => Fin.ext (by match d with | ⟨0, _⟩ => rfl | ⟨1, _⟩ => rfl)
  have hr : ∀ k : Fin 256, ridx_main_v13 (ix2 p q) k = ix2 k q := fun k =>
    funext fun d => Fin.ext (by match d with | ⟨0, _⟩ => rfl | ⟨1, _⟩ => rfl)
  have hb : idx_main_v14 (idx_main_v15 (ix2 p q)) = ix1 q :=
    funext fun d => Fin.ext (by match d with | ⟨0, _⟩ => rfl)
  rw [hb]
  unfold entry
  refine congrArg₂ (· + ·) (Finset.sum_congr rfl fun k _ => ?_) rfl
  rw [hl k, hr k, hidden_apply x0 x1 x2 x3 x4 x5 p k]

end Stages

/-- The reference's last stage is the node update of its own aggregate stage. -/
theorem result_eq (x0 : (⟨S50000x64, .f32⟩ : BufTy).Contents (Elt Ideal)) (x1 : (⟨S800000x64, .f32⟩ : BufTy).Contents (Elt Ideal))
    (x2 x3 : (⟨S800000, .i32⟩ : BufTy).Contents (Elt Ideal)) (x4 : (⟨S128x256, .f32⟩ : BufTy).Contents (Elt Ideal))
    (x5 : (⟨S256, .f32⟩ : BufTy).Contents (Elt Ideal)) (x6 : (⟨S256x64, .f32⟩ : BufTy).Contents (Elt Ideal))
    (x7 : (⟨S64, .f32⟩ : BufTy).Contents (Elt Ideal)) :
    val_main_v16 (F := Ideal) x0 x1 x2 x3 x4 x5 x6 x7
      = updated (Ideal.ofBits .f32 0x00000000#32) (val_main_v6 (F := Ideal) x1 x2 x3) x0 x4 x5 x6 x7 := by
  funext i
  obtain ⟨p, q, rfl⟩ : ∃ (p : Fin 50000) (q : Fin 64), i = ix2 p q := ⟨i 0, i 1, eq_ix2 i⟩
  exact result_apply x0 x1 x2 x3 x4 x5 x6 x7 p q

end Cert.ReferenceIdeal.RefValue

end
-- ==== Proof.lean ====
/-
  A node update of a message-passing layer: the fused kernel against its reference, on the extended reals.

  Both programs first form the same aggregate — every edge's feature row added into the row of each of its two endpoints —
  by the same operations on the same arguments. The reference then lays the aggregate and the node features side by side
  (128 columns), contracts with the first weight matrix, adds the bias, takes the maximum with zero, contracts with the
  second weight matrix and adds the second bias. The kernel never builds the 128-column array: it contracts the aggregate
  with the upper 64 rows of the first weight matrix and the node features with its lower 64 rows, and adds the two; the
  rest is the same, block of 5000 rows by block.

  The two agree entry by entry because a sum over 128 columns is the sum over the first 64 plus the sum over the last 64
  (`NodeUpdate.sum_halves`) — a regrouping of a finite sum, valid on the extended reals whatever the entries, so the
  finiteness of the inputs is never used. Changes of number format are the identity on exact values, and a matrix product
  into a zero accumulator is the plain sum.

  `NodeUpdate` states the common function; `BodyValue` reads one grid step entry by entry; `HostPrefix` reads the arrays
  written before the grid; `KernelValue` assembles the ten blocks into the result array; `RefValue` reads the reference.
  The idealized kernel is the kernel's own text read on exact values (nothing was rewritten), so that conjunct is trivial.
-/
import proofs.«108241_j65249143161008_2_alg».proof.Defs
import proofs.«108241_j65249143161008_2_alg».proof.Proof.Gen.Kernel
import proofs.«108241_j65249143161008_2_alg».proof.Proof.Gen.Kernel.Skeleton
import proofs.«108241_j65249143161008_2_alg».proof.Proof.Gen.Kernel.Launch
import proofs.«108241_j65249143161008_2_alg».proof.Proof.Gen.Kernel.Points
import proofs.«108241_j65249143161008_2_alg».proof.Proof.Gen.Kernel.Frame
import proofs.«108241_j65249143161008_2_alg».proof.Proof.Gen.KernelIdeal
import proofs.«108241_j65249143161008_2_alg».proof.Proof.Gen.KernelIdeal.Skeleton
import proofs.«108241_j65249143161008_2_alg».proof.Proof.Gen.KernelIdeal.Launch
import proofs.«108241_j65249143161008_2_alg».proof.Proof.Gen.KernelIdeal.Points
import proofs.«108241_j65249143161008_2_alg».proof.Proof.Gen.KernelIdeal.Frame
import proofs.«108241_j65249143161008_2_alg».proof.Proof.Gen.ReferenceIdeal
import proofs.«108241_j65249143161008_2_alg».proof.Proof.Gen.Pre_finite_inputs
import proofs.«108241_j65249143161008_2_alg».proof.Proof.Gen.KernelIdeal.Value
import proofs.«108241_j65249143161008_2_alg».proof.Proof.Gen.ReferenceIdeal.Run
import proofs.«108241_j65249143161008_2_alg».proof.Proof.Gen.ReferenceIdeal.Read
import proofs.«108241_j65249143161008_2_alg».proof.Proof.KernelValue
import proofs.«108241_j65249143161008_2_alg».proof.Proof.RefValue
import Idealize.ShloMosaic.Adequacy
import Idealize.ShloMosaic.Init

noncomputable section

namespace Cert.Proof

open Idealize.ShloMosaic Idealize.ShloMosaic.TcCoe Idealize.SL.Sem

/-- The kernel, as printed, runs to the end without a fault and leaves its arguments as they were. -/
theorem frame_kernel : Cert.frame_Kernel := fun m ρ _ => Cert.Kernel.Gen.frame m ρ

/-- So does the kernel read on exact values. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten to read the kernel on exact values. -/
theorem preserves : Cert.preserves_Kernel_KernelIdeal := trivial

/-- The two programs form the aggregate by the same operations of the same arguments. -/
theorem aggregate_eq (e : (⟨Cert.KernelIdeal.S800000x64, .f32⟩ : BufTy).Contents (Elt Ideal))
    (s r : (⟨Cert.KernelIdeal.S800000, .i32⟩ : BufTy).Contents (Elt Ideal)) :
    Cert.ReferenceIdeal.Read.val_main_v6 (F := Ideal) e s r = Cert.KernelIdeal.HostPrefix.aggregate e s r := rfl

/-- From memories that agree on the arguments both programs end with the node update of those arguments. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [h0, h1, h2, h3, h4, h5, h6, h7, Cert.ReferenceIdeal.Read.val_main_v16_eq,
    Cert.ReferenceIdeal.RefValue.result_eq, aggregate_eq]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
